-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x256 : Shape := ⟨3, ![16, 8192, 256]⟩
abbrev S16x256x1024 : Shape := ⟨3, ![16, 256, 1024]⟩
abbrev S16x1024x256 : Shape := ⟨3, ![16, 1024, 256]⟩
abbrev S_ : Shape := ⟨0, ![]⟩

class Facts : Prop where
  bcast_S_S16x8192x256 : S_.BroadcastsInDim S16x8192x256 (![] : Fin 0 → Fin S16x8192x256.rank)
  reducesTo_S16x8192x256_S_d0_1_2 : S16x8192x256.ReducesTo [0, 1, 2] S_
  h_S_ : 0 < S_.numel
  bcast_S_S16x256x1024 : S_.BroadcastsInDim S16x256x1024 (![] : Fin 0 → Fin S16x256x1024.rank)
  reducesTo_S16x256x1024_S_d0_1_2 : S16x256x1024.ReducesTo [0, 1, 2] S_
  bcast_S_S16x1024x256 : S_.BroadcastsInDim S16x1024x256 (![] : Fin 0 → Fin S16x1024x256.rank)
  reducesTo_S16x1024x256_S_d0_1_2 : S16x1024x256.ReducesTo [0, 1, 2] S_

variable [Facts]

def fn {F : FTy → Type} [FloatOps F] (main_arg0 : FVec F S16x8192x256 .f32) (main_arg1 : FVec F S16x256x1024 .f32) (main_arg2 : FVec F S16x1024x256 .f32) : IVec S_ 1 :=
  let main_v0 : FVec F S16x8192x256 .f32 := Host.absf main_arg0
  let main_cst : FVec F S_ .f32 := constant S_ .f32 0x7F800000#32
  let main_v1 : FVec F S16x8192x256 .f32 := broadcastInDim S16x8192x256 ![] bcast_S_S16x8192x256 main_cst
  let main_v2 : IVec S16x8192x256 1 := cmpf .olt main_v0 main_v1
  let main_c : IVec S_ 1 := constantI S_ 1 1#1
  let main_v3 : IVec S_ 1 := (fun x v => Host.reduce IntOp.andi x v reducesTo_S16x8192x256_S_d0_1_2 h_S_) main_v2 main_c
  let main_v4 : FVec F S16x256x1024 .f32 := Host.absf main_arg1
  let main_cst_0 : FVec F S_ .f32 := constant S_ .f32 0x7F800000#32
  let main_v5 : FVec F S16x256x1024 .f32 := broadcastInDim S16x256x1024 ![] bcast_S_S16x256x1024 main_cst_0
  let main_v6 : IVec S16x256x1024 1 := cmpf .olt main_v4 main_v5
  let main_c_1 : IVec S_ 1 := constantI S_ 1 1#1
  let main_v7 : IVec S_ 1 := (fun x v => Host.reduce IntOp.andi x v reducesTo_S16x256x1024_S_d0_1_2 h_S_) main_v6 main_c_1
  let main_v8 : IVec S_ 1 := andi main_v3 main_v7
  let main_v9 : FVec F S16x1024x256 .f32 := Host.absf main_arg2
  let main_cst_2 : FVec F S_ .f32 := constant S_ .f32 0x7F800000#32
  let main_v10 : FVec F S16x1024x256 .f32 := broadcastInDim S16x1024x256 ![] bcast_S_S16x1024x256 main_cst_2
  let main_v11 : IVec S16x1024x256 1 := cmpf .olt main_v9 main_v10
  let main_c_3 : IVec S_ 1 := constantI S_ 1 1#1
  let main_v12 : IVec S_ 1 := (fun x v => Host.reduce IntOp.andi x v reducesTo_S16x1024x256_S_d0_1_2 h_S_) main_v11 main_c_3
  let main_v13 : IVec S_ 1 := andi main_v8 main_v12
  main_v13
-- ==== Kernel.lean ====
abbrev S16x8192x256 : Shape := ⟨3, ![16, 8192, 256]⟩
abbrev S16x256x1024 : Shape := ⟨3, ![16, 256, 1024]⟩
abbrev S16x1024x256 : Shape := ⟨3, ![16, 1024, 256]⟩
abbrev S1x512x256 : Shape := ⟨3, ![1, 512, 256]⟩
abbrev S1x256x1024 : Shape := ⟨3, ![1, 256, 1024]⟩
abbrev S1x1024x256 : Shape := ⟨3, ![1, 1024, 256]⟩
abbrev S512x256 : Shape := ⟨2, ![512, 256]⟩
abbrev S256x1024 : Shape := ⟨2, ![256, 1024]⟩
abbrev S512x1024 : Shape := ⟨2, ![512, 1024]⟩
abbrev S1024x256 : Shape := ⟨2, ![1024, 256]⟩

abbrev nBuf : Space → Nat
  | .hbm => 4
  | .vmem => 8
  | .smem => 0
  | _ => 0

abbrev bufTy : (tb : Table) → Fin (tcTables nBuf tb) → BufTy
  | .hbm, ⟨0, _⟩ => ⟨S16x8192x256, .f32⟩
  | .hbm, ⟨1, _⟩ => ⟨S16x256x1024, .f32⟩
  | .hbm, ⟨2, _⟩ => ⟨S16x1024x256, .f32⟩
  | .hbm, ⟨3, _⟩ => ⟨S16x8192x256, .f32⟩
  | .local _ .vmem, ⟨0, _⟩ => ⟨S1x512x256, .f32⟩
  | .local _ .vmem, ⟨1, _⟩ => ⟨S1x512x256, .f32⟩
  | .local _ .vmem, ⟨2, _⟩ => ⟨S1x256x1024, .f32⟩
  | .local _ .vmem, ⟨3, _⟩ => ⟨S1x256x1024, .f32⟩
  | .local _ .vmem, ⟨4, _⟩ => ⟨S1x1024x256, .f32⟩
  | .local _ .vmem, ⟨5, _⟩ => ⟨S1x1024x256, .f32⟩
  | .local _ .vmem, ⟨6, _⟩ => ⟨S1x512x256, .f32⟩
  | .local _ .vmem, ⟨7, _⟩ => ⟨S1x512x256, .f32⟩
  | _, _ => ⟨S16x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S512x256_S1x512x256 : S512x256.ShapeCasts S1x512x256
  dot_S512x256_S256x1024_S512x1024_1_0_0_1_n_n_wf : DotDims.WF S512x256 S256x1024 S512x1024 [1] [0] [0] [1] [] []
  dot_S512x1024_S1024x256_S512x256_1_0_0_1_n_n_wf : DotDims.WF S512x1024 S1024x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S16x8192x256.size a
  hwx0_0 : ∀ i : grid0.Coords, EltTy.bits .f32 = 32 ∨ (Rect.block (s := S16x8192x256) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S16x256x1024.size a
  hwx0_1 : ∀ i : grid0.Coords, EltTy.bits .f32 = 32 ∨ (Rect.block (s := S16x256x1024) S1x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S16x1024x256.size a
  hwx0_2 : ∀ i : grid0.Coords, EltTy.bits .f32 = 32 ∨ (Rect.block (s := S16x1024x256) S1x1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x256.size a ≤ S16x8192x256.size a
  hwx0_3 : ∀ i : grid0.Coords, EltTy.bits .f32 = 32 ∨ (Rect.block (s := S16x8192x256) S1x512x256.size (cc0_transform_3 i) (hinb0_3 i)).WholeWords (EltTy.packing .f32)

variable [Facts₀]

def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x8192x256 : Shape := ⟨3, ![16, 8192, 256]⟩
abbrev S16x256x1024 : Shape := ⟨3, ![16, 256, 1024]⟩
abbrev S16x1024x256 : Shape := ⟨3, ![16, 1024, 256]⟩
abbrev S16x8192x1024 : Shape := ⟨3, ![16, 8192, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S16x8192x256, .f32⟩
  | .hbm, ⟨1, _⟩ => ⟨S16x256x1024, .f32⟩
  | .hbm, ⟨2, _⟩ => ⟨S16x1024x256, .f32⟩
  | .hbm, ⟨3, _⟩ => ⟨S16x8192x1024, .f32⟩
  | .hbm, ⟨4, _⟩ => ⟨S16x8192x1024, .f32⟩
  | .hbm, ⟨5, _⟩ => ⟨S16x8192x1024, .f32⟩
  | .hbm, ⟨6, _⟩ => ⟨S_, .f32⟩
  | .hbm, ⟨7, _⟩ => ⟨S16x8192x1024, .f32⟩
  | .hbm, ⟨8, _⟩ => ⟨S16x8192x1024, .f32⟩
  | .hbm, ⟨9, _⟩ => ⟨S_, .f32⟩
  | .hbm, ⟨10, _⟩ => ⟨S16x8192x1024, .f32⟩
  | .hbm, ⟨11, _⟩ => ⟨S16x8192x1024, .f32⟩
  | .hbm, ⟨12, _⟩ => ⟨S16x8192x1024, .f32⟩
  | .hbm, ⟨13, _⟩ => ⟨S16x8192x256, .f32⟩
  | _, _ => ⟨S16x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩

abbrev nD : Nat := 1
abbrev τ : Topo := Topo.v7x

variable {F : FTy → Type} [FloatOps F]

class Facts₀ : Prop where
  bcast_S_S16x8192x1024 : S_.BroadcastsInDim S16x8192x1024 (![] : Fin 0 → Fin S16x8192x1024.rank)
  dot_S16x8192x256_S16x256x1024_S16x8192x1024_2_1_1_2_0_0_wf : DotDims.WF S16x8192x256 S16x256x1024 S16x8192x1024 [2] [1] [1] [2] [0] [0]
  dot_S16x8192x1024_S16x1024x256_S16x8192x256_2_1_1_2_0_0_wf : DotDims.WF S16x8192x1024 S16x1024x256 S16x8192x256 [2] [1] [1] [2] [0] [0]

variable [Facts₀]

def dot_S16x8192x256_S16x256x1024_S16x8192x1024_2_1_1_2_0_0 : DotDims S16x8192x256 S16x256x1024 S16x8192x1024 where
  lhsContracting := [2]
  rhsContracting := [1]
  lhsNonContracting := [1]
  rhsNonContracting := [2]
  lhsBatch := [0]
  rhsBatch := [0]
  wf := dot_S16x8192x256_S16x256x1024_S16x8192x1024_2_1_1_2_0_0_wf
def dot_S16x8192x1024_S16x1024x256_S16x8192x256_2_1_1_2_0_0 : DotDims S16x8192x1024 S16x1024x256 S16x8192x256 where
  lhsContracting := [2]
  rhsContracting := [1]
  lhsNonContracting := [1]
  rhsNonContracting := [2]
  lhsBatch := [0]
  rhsBatch := [0]
  wf := dot_S16x8192x1024_S16x1024x256_S16x8192x256_2_1_1_2_0_0_wf

class Facts : Prop extends Facts₀ where

variable [Facts]
-- ==== Proof.BodyDots.lean ====
/-
  The body's two matrix products read at an entry, at the extended reals. A product accumulated into zero has, at row `r` and
  column `c`, the sum over the contracted axis of the left operand's row `r` times the right operand's column `c`: no rounding
  and no order of accumulation is left in it. The first product contracts the 256 input features, the second the 1024 hidden ones.
-/
import proofs.«125171_j14723147891335_1_alg».proof.Proof.Gen.KernelIdeal
import Idealize.ShloMosaic.PureOps.Ideal.Laws
import Idealize.ShloMosaic.Lib.ValueIdx

noncomputable section

namespace Cert.KernelIdeal.BodyDots

open Cert.KernelIdeal Cert.KernelIdeal.Gen Idealize.ShloMosaic Idealize.ShloMosaic.ValueIdx

/-! ### `dot_S512x256_S256x1024_S512x1024_1_0_0_1_n_n`: a 512 × 256 by 256 × 1024 product -/

theorem up_lhs0 (j : S512x1024.Idx) (q : dot_S512x256_S256x1024_S512x1024_1_0_0_1_n_n.contr.Idx) :
    (dot_S512x256_S256x1024_S512x1024_1_0_0_1_n_n.lhsIdx j q 0).val = (j 0).val := by
  unfold DotDims.lhsIdx
  rw [dif_neg (show ¬(0 : Fin S512x256.rank) ∈ dot_S512x256_S256x1024_S512x1024_1_0_0_1_n_n.lhsBatch by decide), dif_pos (show (0 : Fin S512x256.rank) ∈ dot_S512x256_S256x1024_S512x1024_1_0_0_1_n_n.lhsNonContracting by decide)]
  rfl
theorem up_lhs1 (j : S512x1024.Idx) (q : dot_S512x256_S256x1024_S512x1024_1_0_0_1_n_n.contr.Idx) :
    (dot_S512x256_S256x1024_S512x1024_1_0_0_1_n_n.lhsIdx j q 1).val = (q ⟨0, by decide⟩).val :=
  dot_S512x256_S256x1024_S512x1024_1_0_0_1_n_n.lhsIdx_val_of_single rfl j q
theorem up_rhs0 (j : S512x1024.Idx) (q : dot_S512x256_S256x1024_S512x1024_1_0_0_1_n_n.contr.Idx) :
    (dot_S512x256_S256x1024_S512x1024_1_0_0_1_n_n.rhsIdx j q 0).val = (q ⟨0, by decide⟩).val :=
  dot_S512x256_S256x1024_S512x1024_1_0_0_1_n_n.rhsIdx_val_of_single rfl j q
theorem up_rhs1 (j : S512x1024.Idx) (q : dot_S512x256_S256x1024_S512x1024_1_0_0_1_n_n.contr.Idx) :
    (dot_S512x256_S256x1024_S512x1024_1_0_0_1_n_n.rhsIdx j q 1).val = (j 1).val := by
  unfold DotDims.rhsIdx
  rw [dif_neg (show ¬(1 : Fin S256x1024.rank) ∈ dot_S512x256_S256x1024_S512x1024_1_0_0_1_n_n.rhsBatch by decide), dif_pos (show (1 : Fin S256x1024.rank) ∈ dot_S512x256_S256x1024_S512x1024_1_0_0_1_n_n.rhsNonContracting by decide)]
  rfl

/-- Into a zero accumulator the product at row `r`, column `c` is the sum over the 256 contracted positions of the left
    operand's row `r` against the right operand's column `c`. -/
theorem up_apply (a : FVec Ideal S512x256 .bf16) (b : FVec Ideal S256x1024 .bf16) (r : Fin 512) (c : Fin 1024) :
    matmul dot_S512x256_S256x1024_S512x1024_1_0_0_1_n_n none a b (constant (F := Ideal) S512x1024 .f32 0x00000000#32) (ix2 r c)
      = ∑ k : Fin 256, a (ix2 r k) * b (ix2 k c) := by
  simp only [matmul]
  rw [Ideal.matmul_constant_zero_apply, ← Equiv.sum_comp (ValueIdx.contrEquiv1 dot_S512x256_S256x1024_S512x1024_1_0_0_1_n_n 256 rfl rfl).symm]
  refine Finset.sum_congr rfl fun k _ => ?_
  have hk := ValueIdx.contrEquiv1_symm_val dot_S512x256_S256x1024_S512x1024_1_0_0_1_n_n 256 rfl rfl k
  have el : dot_S512x256_S256x1024_S512x1024_1_0_0_1_n_n.lhsIdx (ix2 r c) ((ValueIdx.contrEquiv1 dot_S512x256_S256x1024_S512x1024_1_0_0_1_n_n 256 rfl rfl).symm k) = ix2 r k := funext fun x => Fin.ext (by
    match x with
    | ⟨0, _⟩ => exact up_lhs0 _ _
    | ⟨1, _⟩ => exact (up_lhs1 _ _).trans hk)
  have er : dot_S512x256_S256x1024_S512x1024_1_0_0_1_n_n.rhsIdx (ix2 r c) ((ValueIdx.contrEquiv1 dot_S512x256_S256x1024_S512x1024_1_0_0_1_n_n 256 rfl rfl).symm k) = ix2 k c := funext fun x => Fin.ext (by
    match x with
    | ⟨0, _⟩ => exact (up_rhs0 _ _).trans hk
    | ⟨1, _⟩ => exact up_rhs1 _ _)
  rw [el, er]

/-! ### `dot_S512x1024_S1024x256_S512x256_1_0_0_1_n_n`: a 512 × 1024 by 1024 × 256 product -/

theorem down_lhs0 (j : S512x256.Idx) (q : dot_S512x1024_S1024x256_S512x256_1_0_0_1_n_n.contr.Idx) :
    (dot_S512x1024_S1024x256_S512x256_1_0_0_1_n_n.lhsIdx j q 0).val = (j 0).val := by
  unfold DotDims.lhsIdx
  rw [dif_neg (show ¬(0 : Fin S512x1024.rank) ∈ dot_S512x1024_S1024x256_S512x256_1_0_0_1_n_n.lhsBatch by decide), dif_pos (show (0 : Fin S512x1024.rank) ∈ dot_S512x1024_S1024x256_S512x256_1_0_0_1_n_n.lhsNonContracting by decide)]
  rfl
theorem down_lhs1 (j : S512x256.Idx) (q : dot_S512x1024_S1024x256_S512x256_1_0_0_1_n_n.contr.Idx) :
    (dot_S512x1024_S1024x256_S512x256_1_0_0_1_n_n.lhsIdx j q 1).val = (q ⟨0, by decide⟩).val :=
  dot_S512x1024_S1024x256_S512x256_1_0_0_1_n_n.lhsIdx_val_of_single rfl j q
theorem down_rhs0 (j : S512x256.Idx) (q : dot_S512x1024_S1024x256_S512x256_1_0_0_1_n_n.contr.Idx) :
    (dot_S512x1024_S1024x256_S512x256_1_0_0_1_n_n.rhsIdx j q 0).val = (q ⟨0, by decide⟩).val :=
  dot_S512x1024_S1024x256_S512x256_1_0_0_1_n_n.rhsIdx_val_of_single rfl j q
theorem down_rhs1 (j : S512x256.Idx) (q : dot_S512x1024_S1024x256_S512x256_1_0_0_1_n_n.contr.Idx) :
    (dot_S512x1024_S1024x256_S512x256_1_0_0_1_n_n.rhsIdx j q 1).val = (j 1).val := by
  unfold DotDims.rhsIdx
  rw [dif_neg (show ¬(1 : Fin S1024x256.rank) ∈ dot_S512x1024_S1024x256_S512x256_1_0_0_1_n_n.rhsBatch by decide), dif_pos (show (1 : Fin S1024x256.rank) ∈ dot_S512x1024_S1024x256_S512x256_1_0_0_1_n_n.rhsNonContracting by decide)]
  rfl

/-- Into a zero accumulator the product at row `r`, column `c` is the sum over the 1024 contracted positions of the left
    operand's row `r` against the right operand's column `c`. -/
theorem down_apply (a : FVec Ideal S512x1024 .bf16) (b : FVec Ideal S1024x256 .bf16) (r : Fin 512) (c : Fin 256) :
    matmul dot_S512x1024_S1024x256_S512x256_1_0_0_1_n_n none a b (constant (F := Ideal) S512x256 .f32 0x00000000#32) (ix2 r c)
      = ∑ k : Fin 1024, a (ix2 r k) * b (ix2 k c) := by
  simp only [matmul]
  rw [Ideal.matmul_constant_zero_apply, ← Equiv.sum_comp (ValueIdx.contrEquiv1 dot_S512x1024_S1024x256_S512x256_1_0_0_1_n_n 1024 rfl rfl).symm]
  refine Finset.sum_congr rfl fun k _ => ?_
  have hk := ValueIdx.contrEquiv1_symm_val dot_S512x1024_S1024x256_S512x256_1_0_0_1_n_n 1024 rfl rfl k
  have el : dot_S512x1024_S1024x256_S512x256_1_0_0_1_n_n.lhsIdx (ix2 r c) ((ValueIdx.contrEquiv1 dot_S512x1024_S1024x256_S512x256_1_0_0_1_n_n 1024 rfl rfl).symm k) = ix2 r k := funext fun x => Fin.ext (by
    match x with
    | ⟨0, _⟩ => exact down_lhs0 _ _
    | ⟨1, _⟩ => exact (down_lhs1 _ _).trans hk)
  have er : dot_S512x1024_S1024x256_S512x256_1_0_0_1_n_n.rhsIdx (ix2 r c) ((ValueIdx.contrEquiv1 dot_S512x1024_S1024x256_S512x256_1_0_0_1_n_n 1024 rfl rfl).symm k) = ix2 k c := funext fun x => Fin.ext (by
    match x with
    | ⟨0, _⟩ => exact (down_rhs0 _ _).trans hk
    | ⟨1, _⟩ => exact down_rhs1 _ _)
  rw [el, er]

end Cert.KernelIdeal.BodyDots

end
-- ==== Proof.MlpSpec.lean ====
/-
  The function both programs compute, over the extended reals: a gated two-layer perceptron, head by head.
  For head `h`, row `n` and output column `d`

      mlp x w1 w2 (h, n, d) = ∑ i < 1024, silu (∑ k < 256, x (h, n, k) · w1 (h, k, i)) · w2 (h, i, d),

  with `silu z = z · logistic z` and `logistic z = 1 / (1 + e^(-z))` (its limits `0` at `-∞` and `1` at `+∞`).
  Nothing here mentions a program: the shapes are literal and every index is built from its coordinates.
-/
import Idealize.ShloMosaic.PureOps.Ideal
import Idealize.ShloMosaic.PureOps.Ideal.Laws
import Idealize.ShloMosaic.Lib.ValueIdx

noncomputable section

namespace Cert.Mlp

open Idealize.ShloMosaic Idealize.ShloMosaic.ValueIdx

/-- The activation: `z · logistic z`. -/
def silu (z : EReal) : EReal := z * Ideal.logistic z

/-- The hidden pre-activation of head `h` at row `n` and hidden column `i`: row `n` of `x` against column `i` of `w1`. -/
def preact (x : (⟨3, ![16, 8192, 256]⟩ : Shape).Idx → EReal) (w1 : (⟨3, ![16, 256, 1024]⟩ : Shape).Idx → EReal)
    (h : Fin 16) (n : Fin 8192) (i : Fin 1024) : EReal :=
  ∑ k : Fin 256, x (ix3 h n k) * w1 (ix3 h k i)

/-- The perceptron at head `h`, row `n`, output column `d`: the activated hidden row against column `d` of `w2`. -/
def mlpAt (x : (⟨3, ![16, 8192, 256]⟩ : Shape).Idx → EReal) (w1 : (⟨3, ![16, 256, 1024]⟩ : Shape).Idx → EReal)
    (w2 : (⟨3, ![16, 1024, 256]⟩ : Shape).Idx → EReal) (h : Fin 16) (n : Fin 8192) (d : Fin 256) : EReal :=
  ∑ i : Fin 1024, silu (preact x w1 h n i) * w2 (ix3 h i d)

/-- The whole result array. -/
def mlp (x : (⟨3, ![16, 8192, 256]⟩ : Shape).Idx → EReal) (w1 : (⟨3, ![16, 256, 1024]⟩ : Shape).Idx → EReal)
    (w2 : (⟨3, ![16, 1024, 256]⟩ : Shape).Idx → EReal) : (⟨3, ![16, 8192, 256]⟩ : Shape).Idx → EReal :=
  fun j => mlpAt x w1 w2 (j 0) (j 1) (j 2)

/-- At an index given by its coordinates the result array is `mlpAt` there. -/
theorem mlp_ix3 (x : (⟨3, ![16, 8192, 256]⟩ : Shape).Idx → EReal) (w1 : (⟨3, ![16, 256, 1024]⟩ : Shape).Idx → EReal)
    (w2 : (⟨3, ![16, 1024, 256]⟩ : Shape).Idx → EReal) (h : Fin 16) (n : Fin 8192) (d : Fin 256) :
    mlp x w1 w2 (ix3 h n d) = mlpAt x w1 w2 h n d := rfl

/-- The float pattern `0x3F800000` denotes the real number one. -/
theorem one_f32 : Ideal.ofBits .f32 0x3F800000#32 = 1 := by
  simp [Ideal.ofBits, Ideal.ieee, -EReal.coe_mul]; norm_num

/-- `1 / (1 + e^(-z))` spelt with the quotient and the exponential of the extended reals is `logistic z`. -/
theorem logistic_spelt (z : EReal) : Ideal.div 1 (1 + Ideal.exp (-z)) = Ideal.logistic z := rfl

end Cert.Mlp

end
-- ==== Proof.BodyValue.lean ====
/-
  What the body stores, entry by entry, at the extended reals. The body loads one [1, 512, 256] block of `x` and the
  whole [1, 256, 1024] and [1, 1024, 256] slabs of `w1` and `w2` for its head, drops the leading unit axis, and computes

      out (r, d) = ∑ i < 1024, silu (∑ k < 256, x (0, r, k) · w1 (0, k, i)) · w2 (0, i, d)

  (the roundings to bfloat16 on the way into the two products are the identity on exact values, and `z · logistic z` is
  `silu z`), then stores it back under a leading unit axis.
-/
import proofs.«125171_j14723147891335_1_alg».proof.Proof.Gen.KernelIdeal.Skeleton
import proofs.«125171_j14723147891335_1_alg».proof.Proof.BodyDots
import proofs.«125171_j14723147891335_1_alg».proof.Proof.MlpSpec
import Idealize.ShloMosaic.Lib.Pipeline.Value

noncomputable section

namespace Cert.KernelIdeal.BodyValue

open Cert.KernelIdeal Cert.KernelIdeal.Gen Idealize.ShloMosaic Idealize.ShloMosaic.ValueIdx Cert.Mlp

/-- A [1, a, b] block viewed as an [a, b] matrix reads (0, r, c) at (r, c). -/
theorem dropUnit_ix {a b : Nat} {α : Type} (v : (⟨3, ![1, a, b]⟩ : Shape).Idx → α)
    (h : (⟨3, ![1, a, b]⟩ : Shape).ShapeCasts ⟨2, ![a, b]⟩) (r : Fin a) (c : Fin b) :
    shapeCast ⟨2, ![a, b]⟩ v h (ix2 r c) = v (ix3 0 r c) := by
  refine (shapeCast_dropUnit_apply ![a, b] v h (ix2 r c)).trans (congrArg v (funext fun x => ?_))
  match x with | ⟨0, _⟩ => rfl | ⟨1, _⟩ => rfl | ⟨2, _⟩ => rfl

/-- An [a, b] matrix stored as a [1, a, b] block reads (r, c) at (0, r, c). -/
theorem addUnit_ix {a b : Nat} {α : Type} (v : (⟨2, ![a, b]⟩ : Shape).Idx → α)
    (h : (⟨2, ![a, b]⟩ : Shape).ShapeCasts ⟨3, ![1, a, b]⟩) (z : Fin 1) (r : Fin a) (c : Fin b) :
    shapeCast ⟨3, ![1, a, b]⟩ v h (ix3 z r c) = v (ix2 r c) := by
  refine (shapeCast_addUnit_apply ![a, b] v h (ix3 z r c)).trans (congrArg v (funext fun x => ?_))
  match x with | ⟨0, _⟩ => rfl | ⟨1, _⟩ => rfl

/-- The body's first product: the block of `x` against the slab of `w1`, both as matrices. -/
def up (x0 : Vec Ideal S1x512x256 .f32) (x1 : Vec Ideal S1x256x1024 .f32) : FVec Ideal S512x1024 .f32 :=
  matmul dot_S512x256_S256x1024_S512x1024_1_0_0_1_n_n none
    (truncf .bf16 (shapeCast S512x256 x0 shapeCasts_S1x512x256_S512x256) bitsLt_bf16_f32)
    (truncf .bf16 (shapeCast S256x1024 x1 shapeCasts_S1x256x1024_S256x1024) bitsLt_bf16_f32)
    (constant S512x1024 .f32 0x00000000#32)

/-- At row `r` and hidden column `i` it is row `r` of the block against column `i` of the slab. -/
theorem up_at (x0 : Vec Ideal S1x512x256 .f32) (x1 : Vec Ideal S1x256x1024 .f32) (r : Fin 512) (i : Fin 1024) :
    up x0 x1 (ix2 r i) = ∑ k : Fin 256, x0 (ix3 0 r k) * x1 (ix3 0 k i) := by
  unfold up
  refine (BodyDots.up_apply _ _ r i).trans (Finset.sum_congr rfl fun k _ => ?_)
  exact congrArg₂ (· * ·) (dropUnit_ix x0 _ r k) (dropUnit_ix x1 _ k i)

/-- THE STORED VALUE at (0, r, d): the activated hidden row `r` against column `d` of the slab of `w2`. -/
theorem pay_apply (x0 : Vec Ideal S1x512x256 .f32) (x1 : Vec Ideal S1x256x1024 .f32) (x2 : Vec Ideal S1x1024x256 .f32)
    (z : Fin 1) (r : Fin 512) (d : Fin 256) :
    k0_pay1 (F := Ideal) x0 x1 x2 (ix3 z r d)
      = ∑ i : Fin 1024, silu (∑ k : Fin 256, x0 (ix3 0 r k) * x1 (ix3 0 k i)) * x2 (ix3 0 i d) := by
  unfold k0_pay1
  refine (addUnit_ix _ _ z r d).trans ?_
  refine (BodyDots.down_apply _ _ r d).trans ?_
  refine Finset.sum_congr rfl fun i _ => ?_
  show (up x0 x1 (ix2 r i) * Ideal.logistic (up x0 x1 (ix2 r i)))
      * shapeCast S1024x256 x2 shapeCasts_S1x1024x256_S1024x256 (ix2 i d) = _
  rw [up_at, dropUnit_ix]
  rfl

end Cert.KernelIdeal.BodyValue

end
-- ==== Proof.Blocks.lean ====
/-
  From blocks to the array. The grid runs over (head, row tile): point `t` is head `t / 16` and tile `t % 16`. There the
  body is given rows `512 · (t % 16) … + 511` of head `t / 16` of `x` and that head's whole slabs of `w1` and `w2`, and
  what it writes back is the same 512 rows of that head of `mlp x w1 w2`: every entry of the perceptron depends only on
  its own row of `x` and on its own head's weights. The 256 blocks tile the [16, 8192, 256] result — entry (h, n, d)
  lies in the block of point `16 · h + n / 512` —, so the result array ends as `mlp` of the three argument arrays.
-/
import proofs.«125171_j14723147891335_1_alg».proof.Proof.Gen.KernelIdeal.Value
import proofs.«125171_j14723147891335_1_alg».proof.Proof.BodyValue
import proofs.«125171_j14723147891335_1_alg».proof.Proof.MlpSpec
import Idealize.ShloMosaic.Lib.Pipeline.Value

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Value Idealize.ShloMosaic.ValueIdx Cert.Mlp

variable (m : (ℓ : Loc nD τ sig) → Buf (Elt Ideal) ℓ) (ρ : Dev nD → PrngReg)

theorem hz : (![0, 0, 0] : Fin 3 → Nat) = fun _ => 0 := funext fun a => by fin_cases a <;> rfl

/-- The four block-index maps in closed form over the grid: the row-tiled windows (`x` and the result) sit at block
    (t / 16, t % 16, 0), the two weight windows at block (t / 16, 0, 0). -/
theorem idx_closed : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = 0 ∧ win0_2.index t (2 : Fin 3) = 0
    ∧ win0_3.index t (0 : Fin 3) = t.val / 16 ∧ win0_3.index t (1 : Fin 3) = t.val % 16 ∧ win0_3.index t (2 : Fin 3) = 0 :=
  (by decide +kernel : ∀ t : Fin grid0.N, _)

/-- The block of `x` at point `t`: row `r` of the block is row `512 · (t % 16) + r` of head `t / 16`. -/
theorem xblk_apply (c : Dev nD) (t : Fin cfg0.N) (z : Fin 1) (r : Fin 512) (k : Fin 256) (h : Fin 16) (n : Fin 8192)
    (hh : h.val = t.val / 16) (hn : n.val = t.val % 16 * 512 + r.val) :
    (iblk m c 0 t : Vec Ideal S1x512x256 .f32) (ix3 z r k)
      = (m ((c : Thread nD τ).loc main_arg0) : S16x8192x256.Idx → EReal) (ix3 h n k) := by
  obtain ⟨e0, e1, e2, -⟩ := idx_closed t
  unfold iblk
  rw [View.read_apply]
  show V m c main_arg0 _ = m (c.tc.loc main_arg0) _
  unfold V
  congr 1
  funext a
  apply Fin.ext
  match a with
  | ⟨0, _⟩ => show win0_0.index t (0 : Fin 3) * 1 + 1 * z.val = h.val; rw [e0, hh]; have := z.isLt; omega
  | ⟨1, _⟩ => show win0_0.index t (1 : Fin 3) * 512 + 1 * r.val = n.val; rw [e1, hn]; omega
  | ⟨2, _⟩ => show win0_0.index t (2 : Fin 3) * 256 + 1 * k.val = k.val; rw [e2]; omega

/-- The block of `w1` at point `t` is the whole slab of head `t / 16`. -/
theorem w1blk_apply (c : Dev nD) (t : Fin cfg0.N) (z : Fin 1) (k : Fin 256) (i : Fin 1024) (h : Fin 16)
    (hh : h.val = t.val / 16) :
    (iblk m c 1 t : Vec Ideal S1x256x1024 .f32) (ix3 z k i)
      = (m ((c : Thread nD τ).loc main_arg1) : S16x256x1024.Idx → EReal) (ix3 h k i) := by
  obtain ⟨-, -, -, e0, e1, e2, -⟩ := idx_closed t
  unfold iblk
  rw [View.read_apply]
  show V m c main_arg1 _ = m (c.tc.loc main_arg1) _
  unfold V
  congr 1
  funext a
  apply Fin.ext
  match a with
  | ⟨0, _⟩ => show win0_1.index t (0 : Fin 3) * 1 + 1 * z.val = h.val; rw [e0, hh]; have := z.isLt; omega
  | ⟨1, _⟩ => show win0_1.index t (1 : Fin 3) * 256 + 1 * k.val = k.val; rw [e1]; omega
  | ⟨2, _⟩ => show win0_1.index t (2 : Fin 3) * 1024 + 1 * i.val = i.val; rw [e2]; omega

/-- The block of `w2` at point `t` is the whole slab of head `t / 16`. -/
theorem w2blk_apply (c : Dev nD) (t : Fin cfg0.N) (z : Fin 1) (i : Fin 1024) (d : Fin 256) (h : Fin 16)
    (hh : h.val = t.val / 16) :
    (iblk m c 2 t : Vec Ideal S1x1024x256 .f32) (ix3 z i d)
      = (m ((c : Thread nD τ).loc main_arg2) : S16x1024x256.Idx → EReal) (ix3 h i d) := by
  obtain ⟨-, -, -, -, -, -, e0, e1, e2, -⟩ := idx_closed t
  unfold iblk
  rw [View.read_apply]
  show V m c main_arg2 _ = m (c.tc.loc main_arg2) _
  unfold V
  congr 1
  funext a
  apply Fin.ext
  match a with
  | ⟨0, _⟩ => show win0_2.index t (0 : Fin 3) * 1 + 1 * z.val = h.val; rw [e0, hh]; have := z.isLt; omega
  | ⟨1, _⟩ => show win0_2.index t (1 : Fin 3) * 1024 + 1 * i.val = i.val; rw [e1]; omega
  | ⟨2, _⟩ => show win0_2.index t (2 : Fin 3) * 256 + 1 * d.val = d.val; rw [e2]; omega

/-- The result array both programs are compared on: `mlp` of the three argument arrays as launched. -/
abbrev result (c : Dev nD) : S16x8192x256.Idx → EReal :=
  mlp (m ((c : Thread nD τ).loc main_arg0)) (m ((c : Thread nD τ).loc main_arg1)) (m ((c : Thread nD τ).loc main_arg2))

/-- What the body stores at point `t`, entry (0, r, d) of its block, is `mlp` at head `t / 16`, row `512 · (t % 16) + r`,
    column `d`: the stored sum's factors are the argument arrays' entries of that head and that row. -/
theorem stored_at (c : Dev nD) (t : Fin cfg0.N) (j : S1x512x256.Idx) :
    k0_pay1 (F := Ideal) (iblk m c 0 t) (iblk m c 1 t) (iblk m c 2 t) j
      = result m c (((cfg0.win 3).blk t).view.emb j) := by
  obtain ⟨z, r, d, rfl⟩ : ∃ (z : Fin 1) (r : Fin 512) (d : Fin 256), j = ix3 z r d := ⟨j 0, j 1, j 2, eq_ix3 j⟩
  obtain ⟨-, -, -, -, -, -, -, -, -, e0, e1, e2⟩ := idx_closed t
  have ht : t.val < 256 := lt_of_lt_of_eq t.isLt N_0
  have he : ((cfg0.win 3).blk t).view.emb (ix3 z r d)
      = ix3 (⟨t.val / 16, by omega⟩ : Fin 16) (⟨t.val % 16 * 512 + r.val, by omega⟩ : Fin 8192) d := by
    funext a
    apply Fin.ext
    match a with
    | ⟨0, _⟩ => show win0_3.index t (0 : Fin 3) * 1 + 1 * z.val = t.val / 16; rw [e0]; have := z.isLt; omega
    | ⟨1, _⟩ => show win0_3.index t (1 : Fin 3) * 512 + 1 * r.val = t.val % 16 * 512 + r.val; rw [e1]; omega
    | ⟨2, _⟩ => show win0_3.index t (2 : Fin 3) * 256 + 1 * d.val = d.val; rw [e2]; omega
  rw [he]
  unfold result
  rw [mlp_ix3]
  refine (BodyValue.pay_apply (iblk m c 0 t) (iblk m c 1 t) (iblk m c 2 t) z r d).trans ?_
  unfold mlpAt preact
  refine Finset.sum_congr rfl fun i _ => ?_
  refine congrArg₂ (· * ·) (congrArg silu (Finset.sum_congr rfl fun k _ => congrArg₂ (· * ·) ?_ ?_)) ?_
  · exact xblk_apply m c t 0 r k _ _ rfl rfl
  · exact w1blk_apply m c t 0 k i _ rfl
  · exact w2blk_apply m c t 0 i d _ rfl

/-- WHAT POINT `t` WRITES BACK is block `t` of `mlp` of the argument arrays. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero hz]
  simp only [View.ld_unit_zero (S := S1x512x256) hz, View.ld_unit_zero (S := S1x256x1024) hz,
    View.ld_unit_zero (S := S1x1024x256) hz]
  funext j
  exact stored_at m c t j

/-- An entry of the result array is in point `t`'s block iff each coordinate is in the block's range on its axis. -/
theorem mem_blk (t : Fin cfg0.N) (i : S16x8192x256.Idx) :
    i ∈ ((cfg0.win 3).blk t).view.set ↔ ∀ a : Fin 3, win0_3.index t a * S1x512x256.size a ≤ (i a).val
      ∧ (i a).val < win0_3.index t a * S1x512x256.size a + S1x512x256.size a := by
  show i ∈ ((View.whole main_v0).slice (win0_3.rect t)).set ↔ _
  rw [View.set_slice_whole, Rect.mem_set_unit]
  exact Iff.rfl

/-- THE COVER: entry (h, n, d) lies in the block of point `16 · h + n / 512`, which is written back. -/
theorem cover (i : S16x8192x256.Idx) :
    ∃ t : Fin cfg0.N, (cfg0.win 3).flush t = true ∧ i ∈ ((cfg0.win 3).blk t).view.set := by
  have hi0 : (i 0).val < 16 := (i 0).isLt
  have hi1 : (i 1).val < 8192 := (i 1).isLt
  have hi2 : (i 2).val < 256 := (i 2).isLt
  have hN : cfg0.N = 256 := N_0
  obtain ⟨t, tv⟩ : ∃ t : Fin cfg0.N, t.val = (i 0).val * 16 + (i 1).val / 512 :=
    ⟨⟨(i 0).val * 16 + (i 1).val / 512, by rw [hN]; omega⟩, rfl⟩
  obtain ⟨-, -, -, -, -, -, -, -, -, e0, e1, e2⟩ := idx_closed t
  refine ⟨t, flush0_3 t, ?_⟩
  rw [mem_blk]
  intro a
  match a with
  | ⟨0, _⟩ =>
    show win0_3.index t (0 : Fin 3) * 1 ≤ (i 0).val ∧ (i 0).val < win0_3.index t (0 : Fin 3) * 1 + 1
    rw [e0, tv]; omega
  | ⟨1, _⟩ =>
    show win0_3.index t (1 : Fin 3) * 512 ≤ (i 1).val ∧ (i 1).val < win0_3.index t (1 : Fin 3) * 512 + 512
    rw [e1, tv]; omega
  | ⟨2, _⟩ =>
    show win0_3.index t (2 : Fin 3) * 256 ≤ (i 2).val ∧ (i 2).val < win0_3.index t (2 : Fin 3) * 256 + 256
    rw [e2]; omega

/-- THE RESULT ARRAY after the run is `mlp` of the argument arrays. -/
theorem final (c : Dev nD) : (dats m 0 c).arrAt 3 cfg0.N = result m c :=
  (dats m 0 c).arrAt_eq_of_cover 3 (result m c) (fun t _ => flushed_eq m c t) cover

/-- The kernel's run, read: the result array at `mlp` of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Blocks

end
-- ==== Proof.RefIsMlp.lean ====
/-
  The reference computes `mlp`. Its last stage is the second batched product, whose left operand is the activated
  hidden array: at (h, n, i) that is `z · (1 / (1 + e^(-z)))` with `z` the first batched product at (h, n, i), which is
  `silu z` because the quotient spelt out IS the logistic function on every extended real. Both batched products read, at an
  entry, as the sum over the contracted axis of row times column within head `h`.
-/
import proofs.«125171_j14723147891335_1_alg».proof.Proof.Gen.ReferenceIdeal.Read
import proofs.«125171_j14723147891335_1_alg».proof.Proof.MlpSpec

noncomputable section

namespace Cert.ReferenceIdeal.IsMlp

open Cert.ReferenceIdeal Cert.ReferenceIdeal.Gen Cert.ReferenceIdeal.Read Idealize.ShloMosaic Idealize.ShloMosaic.ValueIdx Cert.Mlp

/-- The first product's operand entries at (h, n, i) and contracted position k: x at (h, n, k), w1 at (h, k, i). -/
theorem lidx0_eq (h : Fin 16) (n : Fin 8192) (i : Fin 1024) (k : Fin 256) : lidx_main_v0 (ix3 h n i) k = ix3 h n k :=
  funext fun a => by match a with | ⟨0, _⟩ => rfl | ⟨1, _⟩ => rfl | ⟨2, _⟩ => rfl
theorem ridx0_eq (h : Fin 16) (n : Fin 8192) (i : Fin 1024) (k : Fin 256) : ridx_main_v0 (ix3 h n i) k = ix3 h k i :=
  funext fun a => by match a with | ⟨0, _⟩ => rfl | ⟨1, _⟩ => rfl | ⟨2, _⟩ => rfl
/-- The second product's operand entries at (h, n, d) and contracted position i: the hidden array at (h, n, i), w2 at (h, i, d). -/
theorem lidx2_eq (h : Fin 16) (n : Fin 8192) (d : Fin 256) (i : Fin 1024) : lidx_main_v2 (ix3 h n d) i = ix3 h n i :=
  funext fun a => by match a with | ⟨0, _⟩ => rfl | ⟨1, _⟩ => rfl | ⟨2, _⟩ => rfl
theorem ridx2_eq (h : Fin 16) (n : Fin 8192) (d : Fin 256) (i : Fin 1024) : ridx_main_v2 (ix3 h n d) i = ix3 h i d :=
  funext fun a => by match a with | ⟨0, _⟩ => rfl | ⟨1, _⟩ => rfl | ⟨2, _⟩ => rfl

/-- The first batched product at (h, n, i) is the hidden pre-activation there. -/
theorem pre_apply (x0 : (⟨S16x8192x256, .f32⟩ : BufTy).Contents (Elt Ideal)) (x1 : (⟨S16x256x1024, .f32⟩ : BufTy).Contents (Elt Ideal))
    (h : Fin 16) (n : Fin 8192) (i : Fin 1024) :
    val_main_v0 (F := Ideal) x0 x1 (ix3 h n i) = preact x0 x1 h n i := by
  rw [val_main_v0_apply]
  unfold preact
  refine Finset.sum_congr rfl fun k _ => ?_
  rw [lidx0_eq, ridx0_eq]

/-- The activated hidden array at (h, n, i) is `silu` of the pre-activation: the reference spells the logistic function as
    one over one plus the exponential of the negated argument. -/
theorem act_apply (x0 : (⟨S16x8192x256, .f32⟩ : BufTy).Contents (Elt Ideal)) (x1 : (⟨S16x256x1024, .f32⟩ : BufTy).Contents (Elt Ideal))
    (h : Fin 16) (n : Fin 8192) (i : Fin 1024) :
    val_main_v1 (F := Ideal) x0 x1 (ix3 h n i) = silu (preact x0 x1 h n i) := by
  rw [val_main_v1_apply, val_main_call0_v5_apply, val_main_call0_v4_apply, val_main_call0_cst_0_apply, val_main_call0_v3_apply,
    val_main_call0_v2_apply, val_main_call0_cst_apply, val_main_call0_v1_apply, val_main_call0_v0_apply, pre_apply]
  simp only [Ideal.mulf_def, Ideal.hostDivf_def, Ideal.addf_def, Ideal.hostUnary_exp_def, Ideal.hostNegf_def, Ideal.negf_def,
    Ideal.ofBits_def, one_f32]
  rfl

/-- The reference's result array is `mlp` of its three arguments. -/
theorem result_eq (x0 : (⟨S16x8192x256, .f32⟩ : BufTy).Contents (Elt Ideal)) (x1 : (⟨S16x256x1024, .f32⟩ : BufTy).Contents (Elt Ideal))
    (x2 : (⟨S16x1024x256, .f32⟩ : BufTy).Contents (Elt Ideal)) :
    val_main_v2 (F := Ideal) x0 x1 x2 = mlp x0 x1 x2 := by
  funext j
  obtain ⟨h, n, d, rfl⟩ : ∃ (h : Fin 16) (n : Fin 8192) (d : Fin 256), j = ix3 h n d := ⟨j 0, j 1, j 2, eq_ix3 j⟩
  rw [val_main_v2_apply, mlp_ix3]
  unfold mlpAt
  refine Finset.sum_congr rfl fun i _ => ?_
  rw [lidx2_eq, ridx2_eq, act_apply]

end Cert.ReferenceIdeal.IsMlp

end
-- ==== Proof.lean ====
/-
  The kernel is a gated two-layer perceptron applied head by head: for each of 16 heads and each tile of 512 rows it
  multiplies the tile of `x` by the head's `w1`, applies `silu z = z · logistic z`, and multiplies by the head's `w2`.
  The reference computes the same with two batched products over the whole arrays and `silu` spelt as
  `z · (1 / (1 + e^(-z)))`. Over the extended reals both are the one function `Cert.Mlp.mlp` of the argument arrays:

    * the reference, stage by stage (Proof/RefIsMlp.lean): each batched product at an entry is the sum over its
      contracted axis, and the spelt-out quotient is the logistic function, infinities included;
    * the kernel's body at an entry of its block (Proof/BodyDots.lean, Proof/BodyValue.lean): the same two sums over the
      block of `x` and the head's slabs of weights, the roundings on the way into the products being the identity;
    * the kernel's result array (Proof/Blocks.lean): each grid point writes back its 512 rows of `mlp`, and the 256
      blocks tile the result.

  No algebraic law beyond reading both sides as the same sums is needed, so finiteness of the inputs is never used.
  The three frames are the programs' runs with the results dropped, and the kernel's idealization rewrote nothing.
-/
import proofs.«125171_j14723147891335_1_alg».proof.Defs
import proofs.«125171_j14723147891335_1_alg».proof.Proof.Gen.Kernel
import proofs.«125171_j14723147891335_1_alg».proof.Proof.Gen.Kernel.Skeleton
import proofs.«125171_j14723147891335_1_alg».proof.Proof.Gen.Kernel.Launch
import proofs.«125171_j14723147891335_1_alg».proof.Proof.Gen.Kernel.Points
import proofs.«125171_j14723147891335_1_alg».proof.Proof.Gen.Kernel.Frame
import proofs.«125171_j14723147891335_1_alg».proof.Proof.Gen.KernelIdeal
import proofs.«125171_j14723147891335_1_alg».proof.Proof.Gen.KernelIdeal.Skeleton
import proofs.«125171_j14723147891335_1_alg».proof.Proof.Gen.KernelIdeal.Launch
import proofs.«125171_j14723147891335_1_alg».proof.Proof.Gen.KernelIdeal.Points
import proofs.«125171_j14723147891335_1_alg».proof.Proof.Gen.KernelIdeal.Frame
import proofs.«125171_j14723147891335_1_alg».proof.Proof.Gen.ReferenceIdeal
import proofs.«125171_j14723147891335_1_alg».proof.Proof.Gen.KernelIdeal.Value
import proofs.«125171_j14723147891335_1_alg».proof.Proof.Gen.ReferenceIdeal.Run
import proofs.«125171_j14723147891335_1_alg».proof.Proof.Gen.ReferenceIdeal.Read
import proofs.«125171_j14723147891335_1_alg».proof.Proof.Gen.Pre_finite_inputs
import proofs.«125171_j14723147891335_1_alg».proof.Proof.Blocks
import proofs.«125171_j14723147891335_1_alg».proof.Proof.RefIsMlp
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the three arguments, the kernel's result array ends at `mlp` of them and so does the
    reference's: equal entry by entry as extended reals. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.IsMlp.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
